-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S2000x128 : Shape := ⟨2, ![2000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 137
  | .vmem => 26
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x64, .f32⟩
  | 66 => ⟨S_, .f32⟩
  | 67 => ⟨S850000, .f32⟩
  | 68 => ⟨S_, .f32⟩
  | 69 => ⟨S50000, .f32⟩
  | 70 => ⟨S850000x1, .i32⟩
  | 71 => ⟨S50000, .f32⟩
  | 72 => ⟨S_, .f32⟩
  | 73 => ⟨S50000, .f32⟩
  | 74 => ⟨S50000, .i1⟩
  | 75 => ⟨S50000, .f32⟩
  | 76 => ⟨S_, .f32⟩
  | 77 => ⟨S_, .f32⟩
  | 78 => ⟨S50000, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x1, .f32⟩
  | 8 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x1, .f32⟩
  | .local _ .vmem, ⟨25, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S800000 : S_.BroadcastsInDim S800000 (![] : Fin 0 → Fin S800000.rank)
  bcast_S800000_S800000x1_0 : S800000.BroadcastsInDim S800000x1 (![0] : Fin 1 → Fin S800000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S800000x1.size a
  hwx4_2 : ∀ i : grid4.Coords, EltTy.bits .f32 = 32 ∨ (Rect.block (s := S800000x1) S8000x1.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v91) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v99) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S800000x1 : Shape := ⟨2, ![800000, 1]⟩
abbrev S800000x64 : Shape := ⟨2, ![800000, 64]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S850000, .i32⟩
  | 71 => ⟨S850000, .i32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S_, .f32⟩
  | 17 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_c_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S800000x1_S800000x64_1_0_n_n_0_1_164_wf : GatherDims.WF S50000x64 S800000x1 S800000x64 [1] [0] [] [0] [] 1 ![1, 64]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.RunResult.lean ====
/-
  The kernel program's run with its result named.

  The program is fourteen segments: six stretches of host operations and five tiled stages. The contents of
  every buffer at each segment boundary are a fold from the launch memory — a stretch applies its host
  operations, a stage replaces its three arrays by what its write-backs leave — and the last boundary's
  contents are what every final state holds. The frame claim reads the six arguments off that last
  boundary; here the same launch reads the result buffer as well, so that the run's post names the
  result as the last boundary's contents at the result buffer, beside the unchanged arguments.
-/
import proofs.«103497_j73409581023621_2_alg».proof.Proof.Gen.KernelIdeal.Frame

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at
    the last boundary's contents and the six arguments end as launched. -/
theorem run_result : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Bridge

end
-- ==== Proof.Blocks.lean ====
/-
  Facts shared by the five tiled stages of the kernel.

  Every stage loads whole blocks and stores one whole block, so each load and store goes through the
  rectangle at offsets (0, 0); the offsets are printed as a literal pair, and the library's lemmas about
  whole-block accesses ask for them as the constant-zero function.
-/
import Idealize.ShloMosaic.Lib.Pipeline.Value
import Idealize.ShloMosaic.Lib.ValueIdx

namespace Cert.KernelIdeal.Bridge

/-- The literal offsets (0, 0) are the zero offsets. -/
theorem zeroOffsets : (![0, 0] : Fin 2 → Nat) = fun _ => 0 := funext fun a => by fin_cases a <;> rfl

end Cert.KernelIdeal.Bridge
-- ==== Proof.Spec.lean ====
/-
  The five dense stages of the graph network, each as ONE function of whole arrays over the extended reals.

  A GCN layer is  D^(-1/2) (A + I) D^(-1/2) (X W) + b : the product X W is dense, the normalised aggregation over
  the edges is a gather and a scatter-add on the host (the same host operations in both programs), and the bias —
  with a rectifier after the first layer — is dense again. The last stage scores each edge by the inner product of
  its two endpoints' features. The dense stages are what the kernel tiles and the reference computes whole; written
  index by index they are the functions below. Indices are built from their coordinates with literal extents, so
  that a row and a column always have the types `Fin R` and `Fin C` of the arrays they index.
-/
import Idealize.ShloMosaic.PureOps.Ideal
import Idealize.ShloMosaic.Lib.ValueIdx

noncomputable section

namespace Cert.GraphNet

open Idealize.ShloMosaic Idealize.ShloMosaic.ValueIdx

/-- The row coordinate of an index of an R × C array. -/
abbrev row {R C : Nat} (i : (⟨2, ![R, C]⟩ : Shape).Idx) : Fin R := ⟨(i 0).val, idx2_lt0 i⟩
/-- The column coordinate of an index of an R × C array. -/
abbrev col {R C : Nat} (i : (⟨2, ![R, C]⟩ : Shape).Idx) : Fin C := ⟨(i 1).val, idx2_lt1 i⟩

/-- The matrix product: entry (r, q) is the sum over the K inner features of X[r, k] · W[k, q]. -/
def matProd {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (row i) k) * W (ix2 k (col i))

/-- A bias row added to every row: entry (r, q) is Y[r, q] + b[0, q]. -/
def addBias {R C : Nat} (Y : (⟨2, ![R, C]⟩ : Shape).Idx → EReal) (b : (⟨2, ![1, C]⟩ : Shape).Idx → EReal) :
    (⟨2, ![R, C]⟩ : Shape).Idx → EReal :=
  fun i => Y i + b (ix2 (0 : Fin 1) (col i))

/-- The same followed by the rectifier: the larger of Y[r, q] + b[0, q] and the value `z` the zero word denotes. -/
def addBiasRelu {R C : Nat} (z : EReal) (Y : (⟨2, ![R, C]⟩ : Shape).Idx → EReal) (b : (⟨2, ![1, C]⟩ : Shape).Idx → EReal) :
    (⟨2, ![R, C]⟩ : Shape).Idx → EReal :=
  fun i => max (Y i + b (ix2 (0 : Fin 1) (col i))) z

/-- Row-wise inner products, kept as a column: entry (e, 0) is the sum over the D features of A[e, d] · B[e, d]. -/
def rowDots {E D : Nat} (A B : (⟨2, ![E, D]⟩ : Shape).Idx → EReal) : (⟨2, ![E, 1]⟩ : Shape).Idx → EReal :=
  fun i => ∑ d : Fin D, A (ix2 (row i) d) * B (ix2 (row i) d)

end Cert.GraphNet

end
-- ==== Proof.Proj1.lean ====
/-
  The first projection: node features times the first weight matrix.

  The kernel computes it 2000 rows at a time: grid point t loads rows 2000·t … 2000·t + 1999 of the
  features (all 128 columns) and the whole 128 × 128 weight matrix, and stores their product as rows
  2000·t … 2000·t + 1999 of the result. Over the extended reals the narrowing of both operands to bf16 is
  the identity and the product into a zero accumulator is the plain sum over the 128 input features, so
  entry (r, q) of the result is  Σ_k x[r, k] · w[k, q]  whichever block r falls in. The 25 blocks tile the
  50000 rows, so the array the stage leaves is the whole matrix product of the two arrays it was given.
-/
import proofs.«103497_j73409581023621_2_alg».proof.Proof.Gen.KernelIdeal.Frame
import proofs.«103497_j73409581023621_2_alg».proof.Proof.Blocks
import proofs.«103497_j73409581023621_2_alg».proof.Proof.Spec
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open Cert.GraphNet

/-! ## One block's product at an entry -/

/-- The block product reads its left operand's row at the output's row … -/
theorem proj1_lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and its right operand's column at the output's column. -/
theorem proj1_rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, q) of a block's product: the sum over the 128 input features of the block's row p times the
    weight matrix's column q. -/
theorem proj1_block_apply (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact proj1_lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact proj1_rhs_col _ _)
  rw [el, er]
  rfl

/-! ## The blocks in the arrays -/

variable (V : (c : Dev nD) → (b : Ref sig .tc) → Buf (Elt Ideal) ((c : Thread nD τ).loc b))

/-- The index maps over the 25 grid points: the feature block and the result block are row block t (their one column
    block is block 0); the weight block is always the whole matrix. -/
theorem proj1_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays the stage was given. -/
theorem proj1_flushed (c : Dev nD) (t : Fin cfg0.N) :
    (dat0 V c).flushed 2 t = ((cfg0.win 2).blk t).view.read (Elt Ideal)
      (matProd (R := 50000) (K := 128) (C := 128) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x128) zeroOffsets]
  obtain ⟨e0, e1, e2, e3, e4, e5⟩ := proj1_index t
  funext y
  obtain ⟨p, q, rfl⟩ : ∃ (p : Fin 2000) (q : Fin 128), y = ix2 p q := ⟨y 0, y 1, eq_ix2 y⟩
  refine (proj1_block_apply (iblk0 V c 0 t) (iblk0 V c 1 t) p q).trans ?_
  rw [View.read_apply]
  unfold matProd
  refine Finset.sum_congr rfl fun k _ => ?_
  have hx : (iblk0 V c 0 t : Vec Ideal S2000x128 .f32) (ix2 p k)
      = V c main_arg0 (ix2 (row (((cfg0.win 2).blk t).view.emb (ix2 p q))) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; rw [e0, e4]
    | ⟨1, _⟩ => show win0_0.index t (1 : Fin 2) * 128 + 1 * k.val = k.val; rw [e1]; omega
  have hw : (iblk0 V c 1 t : Vec Ideal S128x128 .f32) (ix2 k q)
      = V c main_arg2 (ix2 k (col (((cfg0.win 2).blk t).view.emb (ix2 p q)))) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = win0_2.index t (1 : Fin 2) * 128 + 1 * q.val; rw [e3, e5]
  rw [hx, hw]

/-- An index of the result array is in point t's block iff each coordinate is in the block's range on its axis. -/
theorem proj1_mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v7).slice (win0_2.rect t)).set ↔ _
  rw [View.set_slice_whole, Rect.mem_set_unit]
  exact Iff.rfl

/-- Every row r of the result is in the block of point r / 2000: the 25 blocks tile the 50000 rows. -/
theorem proj1_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by show _ < grid0.N; rw [N_0]; omega
  obtain ⟨-, -, -, -, e4, e5⟩ := proj1_index ⟨(i 0).val / 2000, ht⟩
  refine ⟨⟨(i 0).val / 2000, ht⟩, flush0_2 _, ?_⟩
  rw [proj1_mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The array the stage leaves: the whole product of the features and the weights it was given. -/
theorem proj1_final (c : Dev nD) :
    (dat0 V c).arrAt 2 cfg0.N = matProd (R := 50000) (K := 128) (C := 128) (V c main_arg0) (V c main_arg2) :=
  (dat0 V c).arrAt_eq_of_cover 2 _ (fun t _ => proj1_flushed V c t) proj1_cover

end Cert.KernelIdeal.Bridge

end
-- ==== Proof.Proj2.lean ====
/-
  The second projection: the first layer's output times the second weight matrix.

  The kernel computes it 2000 rows at a time: grid point t loads rows 2000·t … 2000·t + 1999 of the hidden
  features (all 128 columns) and the whole 128 × 64 weight matrix, and stores their product as rows
  2000·t … 2000·t + 1999 of the result. Over the extended reals the narrowing of both operands to bf16 is
  the identity and the product into a zero accumulator is the plain sum over the 128 hidden features, so
  entry (r, q) of the result is  Σ_k h[r, k] · w[k, q]  whichever block r falls in. The 25 blocks tile the
  50000 rows, so the array the stage leaves is the whole matrix product of the two arrays it was given.
-/
import proofs.«103497_j73409581023621_2_alg».proof.Proof.Gen.KernelIdeal.Frame
import proofs.«103497_j73409581023621_2_alg».proof.Proof.Blocks
import proofs.«103497_j73409581023621_2_alg».proof.Proof.Spec
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open Cert.GraphNet

/-! ## One block's product at an entry -/

/-- The block product reads its left operand's row at the output's row … -/
theorem proj2_lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- … and its right operand's column at the output's column. -/
theorem proj2_rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- Entry (p, q) of a block's product: the sum over the 128 hidden features of the block's row p times the
    weight matrix's column q. -/
theorem proj2_block_apply (x : Vec Ideal S2000x128 .f32) (w : Vec Ideal S128x64 .f32) (p : Fin 2000) (q : Fin 64) :
    k2_pay1 (F := Ideal) x w (ix2 p q) = ∑ k : Fin 128, x (ix2 p k) * w (ix2 k q) := by
  unfold k2_pay1
  rw [shapeCast_self]
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact proj2_lhs_row _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact proj2_rhs_col _ _)
  rw [el, er]
  rfl

/-! ## The blocks in the arrays -/

variable (V : (c : Dev nD) → (b : Ref sig .tc) → Buf (Elt Ideal) ((c : Thread nD τ).loc b))

/-- The index maps over the 25 grid points: the hidden-feature block and the result block are row block t (their one column
    block is block 0); the weight block is always the whole matrix. -/
theorem proj2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays the stage was given. -/
theorem proj2_flushed (c : Dev nD) (t : Fin cfg2.N) :
    (dat2 V c).flushed 2 t = ((cfg2.win 2).blk t).view.read (Elt Ideal)
      (matProd (R := 50000) (K := 128) (C := 64) (V c main_v45) (V c main_arg4)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x64) zeroOffsets]
  obtain ⟨e0, e1, e2, e3, e4, e5⟩ := proj2_index t
  funext y
  obtain ⟨p, q, rfl⟩ : ∃ (p : Fin 2000) (q : Fin 64), y = ix2 p q := ⟨y 0, y 1, eq_ix2 y⟩
  refine (proj2_block_apply (iblk2 V c 0 t) (iblk2 V c 1 t) p q).trans ?_
  rw [View.read_apply]
  unfold matProd
  refine Finset.sum_congr rfl fun k _ => ?_
  have hx : (iblk2 V c 0 t : Vec Ideal S2000x128 .f32) (ix2 p k)
      = V c main_v45 (ix2 (row (((cfg2.win 2).blk t).view.emb (ix2 p q))) k) := by
    show V c main_v45 (((cfg2.win 0).blk t).view.emb (ix2 p k)) = _
    refine congrArg (V c main_v45) (funext fun a => Fin.ext ?_)
    match a with
    | ⟨0, _⟩ => show win2_0.index t (0 : Fin 2) * 2000 + 1 * p.val = win2_2.index t (0 : Fin 2) * 2000 + 1 * p.val; rw [e0, e4]
    | ⟨1, _⟩ => show win2_0.index t (1 : Fin 2) * 128 + 1 * k.val = k.val; rw [e1]; omega
  have hw : (iblk2 V c 1 t : Vec Ideal S128x64 .f32) (ix2 k q)
      = V c main_arg4 (ix2 k (col (((cfg2.win 2).blk t).view.emb (ix2 p q)))) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 64 + 1 * q.val = win2_2.index t (1 : Fin 2) * 64 + 1 * q.val; rw [e3, e5]
  rw [hx, hw]

/-- An index of the result array is in point t's block iff each coordinate is in the block's range on its axis. -/
theorem proj2_mem_block (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v46).slice (win2_2.rect t)).set ↔ _
  rw [View.set_slice_whole, Rect.mem_set_unit]
  exact Iff.rfl

/-- Every row r of the result is in the block of point r / 2000: the 25 blocks tile the 50000 rows. -/
theorem proj2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 2000 < cfg2.N := by show _ < grid2.N; rw [N_2]; omega
  obtain ⟨-, -, -, -, e4, e5⟩ := proj2_index ⟨(i 0).val / 2000, ht⟩
  refine ⟨⟨(i 0).val / 2000, ht⟩, flush2_2 _, ?_⟩
  rw [proj2_mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e5]; omega

/-- The array the stage leaves: the whole product of the hidden features and the weights it was given. -/
theorem proj2_final (c : Dev nD) :
    (dat2 V c).arrAt 2 cfg2.N = matProd (R := 50000) (K := 128) (C := 64) (V c main_v45) (V c main_arg4) :=
  (dat2 V c).arrAt_eq_of_cover 2 _ (fun t _ => proj2_flushed V c t) proj2_cover

end Cert.KernelIdeal.Bridge

end
-- ==== Proof.Bias1.lean ====
/-
  The first layer's bias and rectifier.

  After the aggregation over the edges the first layer adds its bias to every node's 128 features and clamps
  the sum at zero. The kernel does this 2000 rows at a time: grid point t loads rows 2000·t … 2000·t + 1999 of
  the aggregated array and the bias as a 1 × 128 row, broadcasts the row down the block, adds, takes the
  maximum with the zero word, and stores the block back in the same rows. Entry (r, q) of the result is
  max(y[r, q] + b[0, q], 0) whichever block r falls in, and the 25 blocks tile the 50000 rows.
-/
import proofs.«103497_j73409581023621_2_alg».proof.Proof.Gen.KernelIdeal.Frame
import proofs.«103497_j73409581023621_2_alg».proof.Proof.Blocks
import proofs.«103497_j73409581023621_2_alg».proof.Proof.Spec
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open Cert.GraphNet

/-! ## One block at an entry -/

/-- Entry (p, q) of what a point stores: the block's entry plus the bias row's entry in column q, or the zero word's value if that is larger. -/
theorem bias1_block_apply (y : Vec Ideal S2000x128 .f32) (b : Vec Ideal S1x128 .f32) (p : Fin 2000) (q : Fin 128) :
    k1_pay1 (F := Ideal) y b (ix2 p q) = max (y (ix2 p q) + b (ix2 (0 : Fin 1) q)) (Ideal.ofBits .f32 0x00000000#32) := by
  unfold k1_pay1
  rw [shapeCast_self, shapeCast_self]
  have hb : broadcastTo S2000x128 b broadcasts_S1x128_S2000x128 (ix2 p q) = b (ix2 (0 : Fin 1) q) :=
    broadcastTo_apply b broadcasts_S1x128_S2000x128 (ix2 p q) (ix2 (0 : Fin 1) q) (fun a => by
      match a with
      | ⟨0, _⟩ => rfl
      | ⟨1, _⟩ => rfl)
  show max (y (ix2 p q) + broadcastTo S2000x128 b broadcasts_S1x128_S2000x128 (ix2 p q)) (Ideal.ofBits .f32 0x00000000#32) = _
  rw [hb]

/-! ## The blocks in the arrays -/

variable (V : (c : Dev nD) → (b : Ref sig .tc) → Buf (Elt Ideal) ((c : Thread nD τ).loc b))

/-- The index maps over the 25 grid points: the input block and the result block are row block t (their one column
    block is block 0); the bias block is always the whole row. -/
theorem bias1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias and rectifier applied to the whole input array. -/
theorem bias1_flushed (c : Dev nD) (t : Fin cfg1.N) :
    (dat1 V c).flushed 2 t = ((cfg1.win 2).blk t).view.read (Elt Ideal)
      (addBiasRelu (R := 50000) (C := 128) (Ideal.ofBits .f32 0x00000000#32) (V c main_v43) (V c main_v44)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  obtain ⟨e0, e1, e2, e3, e4, e5⟩ := bias1_index t
  funext y
  obtain ⟨p, q, rfl⟩ : ∃ (p : Fin 2000) (q : Fin 128), y = ix2 p q := ⟨y 0, y 1, eq_ix2 y⟩
  refine (bias1_block_apply (iblk1 V c 0 t) (iblk1 V c 1 t) p q).trans ?_
  rw [View.read_apply]
  unfold addBiasRelu
  have hy : (iblk1 V c 0 t : Vec Ideal S2000x128 .f32) (ix2 p q)
      = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 2000 + 1 * p.val = win1_2.index t (0 : Fin 2) * 2000 + 1 * p.val; rw [e0, e4]
    | ⟨1, _⟩ => show win1_0.index t (1 : Fin 2) * 128 + 1 * q.val = win1_2.index t (1 : Fin 2) * 128 + 1 * q.val; rw [e1, e5]
  have hb : (iblk1 V c 1 t : Vec Ideal S1x128 .f32) (ix2 (0 : Fin 1) q)
      = V c main_v44 (ix2 (0 : Fin 1) (col (((cfg1.win 2).blk t).view.emb (ix2 p q)))) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * (0 : Fin 1).val = (0 : Fin 1).val; rw [e2]; rfl
    | ⟨1, _⟩ => show win1_1.index t (1 : Fin 2) * 128 + 1 * q.val = win1_2.index t (1 : Fin 2) * 128 + 1 * q.val; rw [e3, e5]
  rw [hy, hb]
  rfl

/-- An index of the result array is in point t's block iff each coordinate is in the block's range on its axis. -/
theorem bias1_mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- Every row r of the result is in the block of point r / 2000: the 25 blocks tile the 50000 rows. -/
theorem bias1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 2000 < cfg1.N := by show _ < grid1.N; rw [N_1]; omega
  obtain ⟨-, -, -, -, e4, e5⟩ := bias1_index ⟨(i 0).val / 2000, ht⟩
  refine ⟨⟨(i 0).val / 2000, ht⟩, flush1_2 _, ?_⟩
  rw [bias1_mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [e5]; omega

/-- The array the stage leaves: the bias and rectifier applied to the whole array it was given. -/
theorem bias1_final (c : Dev nD) :
    (dat1 V c).arrAt 2 cfg1.N = addBiasRelu (R := 50000) (C := 128) (Ideal.ofBits .f32 0x00000000#32) (V c main_v43) (V c main_v44) :=
  (dat1 V c).arrAt_eq_of_cover 2 _ (fun t _ => bias1_flushed V c t) bias1_cover

end Cert.KernelIdeal.Bridge

end
-- ==== Proof.Bias2.lean ====
/-
  The second layer's bias.

  After the aggregation over the edges the second layer adds its bias to every node's 64 features; there
  is no rectifier after the last layer. The kernel does this 2000 rows at a time: grid point t loads rows
  2000·t … 2000·t + 1999 of the aggregated array and the bias as a 1 × 64 row, broadcasts the row down the
  block, adds, and stores the block back in the same rows. Entry (r, q) of the result is y[r, q] + b[0, q]
  whichever block r falls in, and the 25 blocks tile the 50000 rows.
-/
import proofs.«103497_j73409581023621_2_alg».proof.Proof.Gen.KernelIdeal.Frame
import proofs.«103497_j73409581023621_2_alg».proof.Proof.Blocks
import proofs.«103497_j73409581023621_2_alg».proof.Proof.Spec
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open Cert.GraphNet

/-! ## One block at an entry -/

/-- Entry (p, q) of what a point stores: the block's entry plus the bias row's entry in column q. -/
theorem bias2_block_apply (y : Vec Ideal S2000x64 .f32) (b : Vec Ideal S1x64 .f32) (p : Fin 2000) (q : Fin 64) :
    k3_pay1 (F := Ideal) y b (ix2 p q) = y (ix2 p q) + b (ix2 (0 : Fin 1) q) := by
  unfold k3_pay1
  rw [shapeCast_self, shapeCast_self]
  have hb : broadcastTo S2000x64 b broadcasts_S1x64_S2000x64 (ix2 p q) = b (ix2 (0 : Fin 1) q) :=
    broadcastTo_apply b broadcasts_S1x64_S2000x64 (ix2 p q) (ix2 (0 : Fin 1) q) (fun a => by
      match a with
      | ⟨0, _⟩ => rfl
      | ⟨1, _⟩ => rfl)
  show y (ix2 p q) + broadcastTo S2000x64 b broadcasts_S1x64_S2000x64 (ix2 p q) = _
  rw [hb]

/-! ## The blocks in the arrays -/

variable (V : (c : Dev nD) → (b : Ref sig .tc) → Buf (Elt Ideal) ((c : Thread nD τ).loc b))

/-- The index maps over the 25 grid points: the input block and the result block are row block t (their one column
    block is block 0); the bias block is always the whole row. -/
theorem bias2_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias applied to the whole input array. -/
theorem bias2_flushed (c : Dev nD) (t : Fin cfg3.N) :
    (dat3 V c).flushed 2 t = ((cfg3.win 2).blk t).view.read (Elt Ideal)
      (addBias (R := 50000) (C := 64) (V c main_v82) (V c main_v83)) := by
  show (cfg3.win 2).cut (grid3.coords t) ((dat3 V c).after 2 t) = _
  rw [after3_2]
  unfold out3_2
  rw [View.canon_unit_zero zeroOffsets]
  simp only [View.ld_unit_zero (S := S2000x64) zeroOffsets, View.ld_unit_zero (S := S1x64) zeroOffsets]
  obtain ⟨e0, e1, e2, e3, e4, e5⟩ := bias2_index t
  funext y
  obtain ⟨p, q, rfl⟩ : ∃ (p : Fin 2000) (q : Fin 64), y = ix2 p q := ⟨y 0, y 1, eq_ix2 y⟩
  refine (bias2_block_apply (iblk3 V c 0 t) (iblk3 V c 1 t) p q).trans ?_
  rw [View.read_apply]
  unfold addBias
  have hy : (iblk3 V c 0 t : Vec Ideal S2000x64 .f32) (ix2 p q)
      = V c main_v82 (((cfg3.win 2).blk t).view.emb (ix2 p q)) := by
    show V c main_v82 (((cfg3.win 0).blk t).view.emb (ix2 p q)) = _
    refine congrArg (V c main_v82) (funext fun a => Fin.ext ?_)
    match a with
    | ⟨0, _⟩ => show win3_0.index t (0 : Fin 2) * 2000 + 1 * p.val = win3_2.index t (0 : Fin 2) * 2000 + 1 * p.val; rw [e0, e4]
    | ⟨1, _⟩ => show win3_0.index t (1 : Fin 2) * 64 + 1 * q.val = win3_2.index t (1 : Fin 2) * 64 + 1 * q.val; rw [e1, e5]
  have hb : (iblk3 V c 1 t : Vec Ideal S1x64 .f32) (ix2 (0 : Fin 1) q)
      = V c main_v83 (ix2 (0 : Fin 1) (col (((cfg3.win 2).blk t).view.emb (ix2 p q)))) := by
    show V c main_v83 (((cfg3.win 1).blk t).view.emb (ix2 (0 : Fin 1) q)) = _
    refine congrArg (V c main_v83) (funext fun a => Fin.ext ?_)
    match a with
    | ⟨0, _⟩ => show win3_1.index t (0 : Fin 2) * 1 + 1 * (0 : Fin 1).val = (0 : Fin 1).val; rw [e2]; rfl
    | ⟨1, _⟩ => show win3_1.index t (1 : Fin 2) * 64 + 1 * q.val = win3_2.index t (1 : Fin 2) * 64 + 1 * q.val; rw [e3, e5]
  rw [hy, hb]
  rfl

/-- An index of the result array is in point t's block iff each coordinate is in the block's range on its axis. -/
theorem bias2_mem_block (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v84).slice (win3_2.rect t)).set ↔ _
  rw [View.set_slice_whole, Rect.mem_set_unit]
  exact Iff.rfl

/-- Every row r of the result is in the block of point r / 2000: the 25 blocks tile the 50000 rows. -/
theorem bias2_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have ht : (i 0).val / 2000 < cfg3.N := by show _ < grid3.N; rw [N_3]; omega
  obtain ⟨-, -, -, -, e4, e5⟩ := bias2_index ⟨(i 0).val / 2000, ht⟩
  refine ⟨⟨(i 0).val / 2000, ht⟩, flush3_2 _, ?_⟩
  rw [bias2_mem_block]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 64 ≤ (i 1).val
      ∧ (i 1).val < win3_2.index ⟨(i 0).val / 2000, ht⟩ (1 : Fin 2) * 64 + 64
    rw [e5]; omega

/-- The array the stage leaves: the bias applied to the whole array it was given. -/
theorem bias2_final (c : Dev nD) :
    (dat3 V c).arrAt 2 cfg3.N = addBias (R := 50000) (C := 64) (V c main_v82) (V c main_v83) :=
  (dat3 V c).arrAt_eq_of_cover 2 _ (fun t _ => bias2_flushed V c t) bias2_cover

end Cert.KernelIdeal.Bridge

end
-- ==== Proof.EdgeDot.lean ====
/-
  The edge scores: the inner product of each edge's two endpoint feature rows.

  The two gathered arrays hold, for each of the 800000 edges, the 64 output features of its source and of
  its destination. The kernel works 8000 edges at a time: grid point t loads rows 8000·t … 8000·t + 7999 of
  both arrays, multiplies them entry by entry, sums each row over its 64 lanes (a sum into a zero
  accumulator: over the extended reals the plain sum), and stores the 8000 sums as a column in rows
  8000·t … 8000·t + 7999 of an 800000 × 1 result. Entry (e, 0) of the result is  Σ_d a[e, d] · b[e, d]
  whichever block e falls in, and the 100 blocks tile the 800000 edges.
-/
import proofs.«103497_j73409581023621_2_alg».proof.Proof.Gen.KernelIdeal.Frame
import proofs.«103497_j73409581023621_2_alg».proof.Proof.Blocks
import proofs.«103497_j73409581023621_2_alg».proof.Proof.Spec
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open Cert.GraphNet

/-! ## One block at an entry -/

/-- Entry (p, 0) of what a point stores: the sum over the 64 features of the products of the two blocks' rows p. -/
theorem edge_block_apply (a b : Vec Ideal S8000x64 .f32) (p : Fin 8000) :
    k4_pay1 (F := Ideal) a b (ix2 p (0 : Fin 1)) = ∑ d : Fin 64, a (ix2 p d) * b (ix2 p d) := by
  unfold k4_pay1
  rw [shapeCast_self, shapeCast_self]
  refine (shapeCast_apply _ shapeCasts_S8000_S8000x1 (ix2 p (0 : Fin 1)) (ix1 p) ?_).trans ?_
  · rw [Shape.rowMajor_val_one, Shape.rowMajor_val_two]
    show p.val = p.val * 1 + 0
    omega
  refine (Ideal.multiReduction_add_single (mulf a b) 0x00000000#32 reduces_S8000x64_S8000 (.inl rfl) rfl (ix1 p)).trans ?_
  refine Finset.sum_congr rfl fun d _ => ?_
  have e : reduces_S8000x64_S8000.lift (ix1 p) d = ix2 p d :=
    funext fun x => Fin.ext (by match x with | ⟨0, _⟩ => rfl | ⟨1, _⟩ => rfl)
  rw [e]
  rfl

/-! ## The blocks in the arrays -/

variable (V : (c : Dev nD) → (b : Ref sig .tc) → Buf (Elt Ideal) ((c : Thread nD τ).loc b))

/-- The index maps over the 100 grid points: all three blocks are row block t (their one column block is block 0). -/
theorem edge_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the row-wise inner products of the two whole arrays. -/
theorem edge_flushed (c : Dev nD) (t : Fin cfg4.N) :
    (dat4 V c).flushed 2 t = ((cfg4.win 2).blk t).view.read (Elt Ideal)
      (rowDots (E := 800000) (D := 64) (V c main_v91) (V c main_v98)) := by
  show (cfg4.win 2).cut (grid4.coords t) ((dat4 V c).after 2 t) = _
  rw [after4_2]
  unfold out4_2
  rw [View.canon_unit_zero zeroOffsets]
  simp only [View.ld_unit_zero (S := S8000x64) zeroOffsets]
  obtain ⟨e0, e1, e2, e3, e4, e5⟩ := edge_index t
  funext y
  obtain ⟨p, z, rfl⟩ : ∃ (p : Fin 8000) (z : Fin 1), y = ix2 p z := ⟨y 0, y 1, eq_ix2 y⟩
  obtain rfl : z = 0 := Subsingleton.elim _ _
  refine (edge_block_apply (iblk4 V c 0 t) (iblk4 V c 1 t) p).trans ?_
  rw [View.read_apply]
  unfold rowDots
  refine Finset.sum_congr rfl fun d _ => ?_
  have ha : (iblk4 V c 0 t : Vec Ideal S8000x64 .f32) (ix2 p d)
      = V c main_v91 (ix2 (row (((cfg4.win 2).blk t).view.emb (ix2 p (0 : Fin 1)))) d) := by
    show V c main_v91 (((cfg4.win 0).blk t).view.emb (ix2 p d)) = _
    refine congrArg (V c main_v91) (funext fun x => Fin.ext ?_)
    match x with
    | ⟨0, _⟩ => show win4_0.index t (0 : Fin 2) * 8000 + 1 * p.val = win4_2.index t (0 : Fin 2) * 8000 + 1 * p.val; rw [e0, e4]
    | ⟨1, _⟩ => show win4_0.index t (1 : Fin 2) * 64 + 1 * d.val = d.val; rw [e1]; omega
  have hb : (iblk4 V c 1 t : Vec Ideal S8000x64 .f32) (ix2 p d)
      = V c main_v98 (ix2 (row (((cfg4.win 2).blk t).view.emb (ix2 p (0 : Fin 1)))) d) := by
    show V c main_v98 (((cfg4.win 1).blk t).view.emb (ix2 p d)) = _
    refine congrArg (V c main_v98) (funext fun x => Fin.ext ?_)
    match x with
    | ⟨0, _⟩ => show win4_1.index t (0 : Fin 2) * 8000 + 1 * p.val = win4_2.index t (0 : Fin 2) * 8000 + 1 * p.val; rw [e2, e4]
    | ⟨1, _⟩ => show win4_1.index t (1 : Fin 2) * 64 + 1 * d.val = d.val; rw [e3]; omega
  rw [ha, hb]

/-- An index of the result array is in point t's block iff each coordinate is in the block's range on its axis. -/
theorem edge_mem_block (t : Fin cfg4.N) (i : S800000x1.Idx) :
    i ∈ ((cfg4.win 2).blk t).view.set ↔ ∀ a : Fin 2, win4_2.index t a * S8000x1.size a ≤ (i a).val
      ∧ (i a).val < win4_2.index t a * S8000x1.size a + S8000x1.size a := by
  show i ∈ ((View.whole main_v99).slice (win4_2.rect t)).set ↔ _
  rw [View.set_slice_whole, Rect.mem_set_unit]
  exact Iff.rfl

/-- Every edge e is in the block of point e / 8000: the 100 blocks tile the 800000 edges. -/
theorem edge_cover (i : S800000x1.Idx) :
    ∃ t : Fin cfg4.N, (cfg4.win 2).flush t = true ∧ i ∈ ((cfg4.win 2).blk t).view.set := by
  have hi0 : (i 0).val < 800000 := (i 0).isLt
  have hi1 : (i 1).val < 1 := (i 1).isLt
  have ht : (i 0).val / 8000 < cfg4.N := by show _ < grid4.N; rw [N_4]; omega
  obtain ⟨-, -, -, -, e4, e5⟩ := edge_index ⟨(i 0).val / 8000, ht⟩
  refine ⟨⟨(i 0).val / 8000, ht⟩, flush4_2 _, ?_⟩
  rw [edge_mem_block]
  intro a
  match a with
  | ⟨0, _⟩ =>
    show win4_2.index ⟨(i 0).val / 8000, ht⟩ (0 : Fin 2) * 8000 ≤ (i 0).val
      ∧ (i 0).val < win4_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win4_2.index ⟨(i 0).val / 8000, ht⟩ (1 : Fin 2) * 1 ≤ (i 1).val
      ∧ (i 1).val < win4_2.index ⟨(i 0).val / 8000, ht⟩ (1 : Fin 2) * 1 + 1
    rw [e5]; omega

/-- The array the stage leaves: the row-wise inner products of the two arrays it was given, as a column. -/
theorem edge_final (c : Dev nD) :
    (dat4 V c).arrAt 2 cfg4.N = rowDots (E := 800000) (D := 64) (V c main_v91) (V c main_v98) :=
  (dat4 V c).arrAt_eq_of_cover 2 _ (fun t _ => edge_flushed V c t) edge_cover

end Cert.KernelIdeal.Bridge

end
-- ==== Proof.RefStages.lean ====
/-
  The reference's five dense stages are the specification's functions.

  The reference computes each dense stage in one host operation over whole arrays: a `dot_general` contracting the
  128 inner features, an `add` of a bias broadcast down the rows (through a 1 × C row) followed, after the first
  layer, by a `maximum` with a broadcast zero, and a `reduce` with `add` over the 64 lanes from the initial value
  zero. Read at an index over the extended reals these are the sums, the sum-and-bias, the clamp and the row-wise
  inner product of the specification; the only facts used are that a broadcast reads its operand where its
  dimension map says, that a reshape keeps the row-major position, and that 0 + s = s.
-/
import proofs.«103497_j73409581023621_2_alg».proof.Proof.RefRead
import proofs.«103497_j73409581023621_2_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx
open Cert.GraphNet

/-- The first `dot_general` is the matrix product of the features and the first weights. -/
theorem proj1_eq (X : (⟨S50000x128, .f32⟩ : BufTy).Contents (Elt Ideal)) (W : (⟨S128x128, .f32⟩ : BufTy).Contents (Elt Ideal)) :
    val_main_v7 (F := Ideal) X W = matProd (R := 50000) (K := 128) (C := 128) X W := by
  funext i
  rw [val_main_v7_apply]
  unfold matProd
  refine Finset.sum_congr rfl fun k _ => ?_
  have el : lidx_main_v7 i k = ix2 (row i) k := funext fun a => Fin.ext (by match a with | ⟨0, _⟩ => rfl | ⟨1, _⟩ => rfl)
  have er : ridx_main_v7 i k = ix2 k (col i) := funext fun a => Fin.ext (by match a with | ⟨0, _⟩ => rfl | ⟨1, _⟩ => rfl)
  rw [el, er]

/-- The second `dot_general` is the matrix product of the hidden features and the second weights. -/
theorem proj2_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v51 (F := Ideal) x0 x1 x2 x3 x4
      = matProd (R := 50000) (K := 128) (C := 64) (val_main_v47 (F := Ideal) x0 x1 x2 x3) x4 := by
  funext i
  rw [val_main_v51_apply]
  unfold matProd
  refine Finset.sum_congr rfl fun k _ => ?_
  have el : lidx_main_v51 i k = ix2 (row i) k := funext fun a => Fin.ext (by match a with | ⟨0, _⟩ => rfl | ⟨1, _⟩ => rfl)
  have er : ridx_main_v51 i k = ix2 k (col i) := funext fun a => Fin.ext (by match a with | ⟨0, _⟩ => rfl | ⟨1, _⟩ => rfl)
  rw [el, er]

/-- The first layer's `add` of the broadcast bias and `maximum` with the broadcast zero: the bias row is the bias vector
    reshaped to 1 × 128, whichever way the row was made. -/
theorem bias1_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (h : S128.ShapeCasts S1x128) :
    val_main_v47 (F := Ideal) x0 x1 x2 x3
      = addBiasRelu (R := 50000) (C := 128) (Ideal.ofBits .f32 0x00000000#32) (val_main_v43 (F := Ideal) x0 x1 x2)
          (shapeCast S1x128 x3 h) := by
  funext i
  rw [val_main_v47_apply, val_main_v46_apply, val_main_v45_apply, val_main_v44_apply, val_main_call1_v0_apply,
    val_main_call1_cst_apply]
  unfold addBiasRelu
  rw [shapeCast_apply x3 h (ix2 (0 : Fin 1) (col i)) (idx_main_v44 (idx_main_v45 i)) (by
    rw [Shape.rowMajor_val_one, Shape.rowMajor_val_two]
    show (i 1).val = 0 * 128 + (i 1).val
    omega)]
  rfl

/-- The second layer's `add` of the broadcast bias. -/
theorem bias2_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (h : S64.ShapeCasts S1x64) :
    val_main_v90 (F := Ideal) x0 x1 x2 x3 x4 x5
      = addBias (R := 50000) (C := 64) (val_main_v87 (F := Ideal) x0 x1 x2 x3 x4) (shapeCast S1x64 x5 h) := by
  funext i
  rw [val_main_v90_apply, val_main_v89_apply, val_main_v88_apply]
  unfold addBias
  rw [shapeCast_apply x5 h (ix2 (0 : Fin 1) (col i)) (idx_main_v88 (idx_main_v89 i)) (by
    rw [Shape.rowMajor_val_one, Shape.rowMajor_val_two]
    show (i 1).val = 0 * 64 + (i 1).val
    omega)]
  rfl

/-- The final `reduce` with `add` over the 64 lanes of the product of the two gathered arrays: the column of row-wise
    inner products, reshaped to a vector. -/
theorem edge_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (h : S800000x1.ShapeCasts S800000) :
    val_main_v106 (F := Ideal) x0 x1 x2 x3 x4 x5
      = shapeCast S800000 (rowDots (E := 800000) (D := 64) (val_main_v97 (F := Ideal) x0 x1 x2 x3 x4 x5)
          (val_main_v104 (F := Ideal) x0 x1 x2 x3 x4 x5)) h := by
  funext i
  rw [val_main_v106_apply, val_main_cst_24_apply,
    shapeCast_apply _ h i (ix2 (⟨(i 0).val, (i 0).isLt⟩ : Fin 800000) (0 : Fin 1)) (by
      rw [Shape.rowMajor_val_one, Shape.rowMajor_val_two]
      show (i 0).val * 1 + 0 = (i 0).val
      omega)]
  unfold rowDots
  show Ideal.ofBits .f32 0x00000000#32 + _ = _
  rw [Ideal.ofBits_zero_f32, zero_add]
  refine Finset.sum_congr rfl fun k _ => ?_
  rw [val_main_v105_apply]
  have e : idx_main_v106 i k = ix2 (row (ix2 (⟨(i 0).val, (i 0).isLt⟩ : Fin 800000) (0 : Fin 1))) k :=
    funext fun a => Fin.ext (by match a with | ⟨0, _⟩ => rfl | ⟨1, _⟩ => rfl)
  rw [e]
  rfl

end Cert.ReferenceIdeal.Stages

end
-- ==== Proof.KernelValue.lean ====
/-
  The kernel program's result as a function of its arguments.

  The contents of the kernel program's buffers at the fourteen segment boundaries are a fold from the launch
  memory: a stretch of host operations applies them in order, a tiled stage replaces its result array by what
  its write-backs leave and keeps every other buffer. Reading that fold backwards from the result buffer: the
  result is the reshape of the edge-score stage's column; that stage's two inputs are gathers of the second
  layer's output along the edge endpoints; the second layer's output is the bias stage applied to the
  scatter-add of the normalised gathered rows of the second product; and so on down to the arguments. Each
  tiled stage's array is, by its own module, the specification's function of the arrays it was given, which is
  the reference's host operation of the same arrays; every host operation in between is the reference's own
  (the same gather, scatter-add, select and broadcast lines, over the same self-loop-extended edge lists), so
  each boundary value below is the reference's stage value of the arguments, and the last is its result.

  The host stretches are read for any float values: what a stretch leaves is the reference's stage value of the
  arguments as soon as the tiled stage before it left the reference's stage value (a hypothesis there). Only the
  tiled stages are read over the extended reals, where each hypothesis is discharged in turn.
-/
import proofs.«103497_j73409581023621_2_alg».proof.Proof.Gen.KernelIdeal.Frame
import proofs.«103497_j73409581023621_2_alg».proof.Proof.Proj1
import proofs.«103497_j73409581023621_2_alg».proof.Proof.Proj2
import proofs.«103497_j73409581023621_2_alg».proof.Proof.Bias1
import proofs.«103497_j73409581023621_2_alg».proof.Proof.Bias2
import proofs.«103497_j73409581023621_2_alg».proof.Proof.EdgeDot
import proofs.«103497_j73409581023621_2_alg».proof.Proof.RefStages
import Idealize.ShloMosaic.Lib.StableHlo.Run

noncomputable section

namespace Cert.KernelIdeal.Bridge

open Cert.KernelIdeal Cert.KernelIdeal.Gen Idealize.ShloMosaic Idealize.ShloMosaic.TcCoe Idealize.SL.Sem
open Idealize.ShloMosaic.StableHlo
open Cert.GraphNet
open Cert.ReferenceIdeal.ReadP (val_main_v1 val_main_v3 val_main_v5 val_main_v6 val_main_v7 val_main_v43 val_main_v47 val_main_v51
  val_main_v87 val_main_v90 val_main_v97 val_main_v104 val_main_v106)

section AnyValues

variable {F : FTy → Type} [FloatOps F]
variable (m : (ℓ : Loc nD τ sig) → Buf (Elt F) ℓ) (ρ : Dev nD → PrngReg) (c : Dev nD)

/-! ## The arguments as launched -/

/-- The node features. -/
abbrev feat : (⟨Cert.ReferenceIdeal.S50000x128, .f32⟩ : BufTy).Contents (Elt F) := m ((c : Thread nD τ).loc main_arg0)
/-- The edge list: sources in row 0, destinations in row 1. -/
abbrev edges : (⟨Cert.ReferenceIdeal.S2x800000, .i32⟩ : BufTy).Contents (Elt F) := m ((c : Thread nD τ).loc main_arg1)
/-- The first layer's weights and bias. -/
abbrev wts1 : (⟨Cert.ReferenceIdeal.S128x128, .f32⟩ : BufTy).Contents (Elt F) := m ((c : Thread nD τ).loc main_arg2)
abbrev bia1 : (⟨Cert.ReferenceIdeal.S128, .f32⟩ : BufTy).Contents (Elt F) := m ((c : Thread nD τ).loc main_arg3)
/-- The second layer's weights and bias. -/
abbrev wts2 : (⟨Cert.ReferenceIdeal.S128x64, .f32⟩ : BufTy).Contents (Elt F) := m ((c : Thread nD τ).loc main_arg4)
abbrev bia2 : (⟨Cert.ReferenceIdeal.S64, .f32⟩ : BufTy).Contents (Elt F) := m ((c : Thread nD τ).loc main_arg5)

/-! ## Before the first stage: the edge lists with self loops -/

theorem at1_feat : W1 m ρ c (Proc.devRef .tc main_arg0) = feat m c := by
  show StableHlo.after hostOps0 (W0 m ρ c) (Proc.devRef .tc main_arg0) = _
  after_results_simp <;> rfl
theorem at1_wts1 : W1 m ρ c (Proc.devRef .tc main_arg2) = wts1 m c := by
  show StableHlo.after hostOps0 (W0 m ρ c) (Proc.devRef .tc main_arg2) = _
  after_results_simp <;> rfl
theorem at1_bia1 : W1 m ρ c (Proc.devRef .tc main_arg3) = bia1 m c := by
  show StableHlo.after hostOps0 (W0 m ρ c) (Proc.devRef .tc main_arg3) = _
  after_results_simp <;> rfl
theorem at1_wts2 : W1 m ρ c (Proc.devRef .tc main_arg4) = wts2 m c := by
  show StableHlo.after hostOps0 (W0 m ρ c) (Proc.devRef .tc main_arg4) = _
  after_results_simp <;> rfl
theorem at1_bia2 : W1 m ρ c (Proc.devRef .tc main_arg5) = bia2 m c := by
  show StableHlo.after hostOps0 (W0 m ρ c) (Proc.devRef .tc main_arg5) = _
  after_results_simp <;> rfl
theorem at1_src : W1 m ρ c (Proc.devRef .tc main_v1) = val_main_v1 (F := F) (edges m c) := by
  show StableHlo.after hostOps0 (W0 m ρ c) (Proc.devRef .tc main_v1) = _
  after_results_simp <;> rfl
theorem at1_dst : W1 m ρ c (Proc.devRef .tc main_v3) = val_main_v3 (F := F) (edges m c) := by
  show StableHlo.after hostOps0 (W0 m ρ c) (Proc.devRef .tc main_v3) = _
  after_results_simp <;> rfl
theorem at1_srcLoop : W1 m ρ c (Proc.devRef .tc main_v5) = val_main_v5 (F := F) (edges m c) := by
  show StableHlo.after hostOps0 (W0 m ρ c) (Proc.devRef .tc main_v5) = _
  after_results_simp <;> rfl
theorem at1_dstLoop : W1 m ρ c (Proc.devRef .tc main_v6) = val_main_v6 (F := F) (edges m c) := by
  show StableHlo.after hostOps0 (W0 m ρ c) (Proc.devRef .tc main_v6) = _
  after_results_simp <;> rfl

/-! ## Between the first product and the first bias: the first aggregation over the edges -/

/-- The degree-normalised rows of the first product, gathered along the sources and scatter-added at the destinations. -/
theorem at5_agg1 (h7 : W2 m ρ c (Proc.devRef .tc main_v7) = val_main_v7 (F := F) (feat m c) (wts1 m c)) :
    W5 m ρ c (Proc.devRef .tc main_v43) = val_main_v43 (F := F) (feat m c) (edges m c) (wts1 m c) := by
  show StableHlo.after hostOps1_2 (StableHlo.after hostOps1_1 (StableHlo.after hostOps1 (W2 m ρ c))) (Proc.devRef .tc main_v43) = _
  after_results_simp
  rw [h7, W2_of_ne m ρ c main_v5 (by decide), W2_of_ne m ρ c main_v6 (by decide), at1_srcLoop, at1_dstLoop]
  rfl
/-- The first bias as a 1 × 128 row. -/
theorem at5_biasRow1 : W5 m ρ c (Proc.devRef .tc main_v44)
    = shapeCast Cert.ReferenceIdeal.S1x128 (bia1 m c) Cert.KernelIdeal.Gen.shapeCasts_S128_S1x128 := by
  show StableHlo.after hostOps1_2 (StableHlo.after hostOps1_1 (StableHlo.after hostOps1 (W2 m ρ c))) (Proc.devRef .tc main_v44) = _
  after_results_simp
  rw [W2_of_ne m ρ c main_arg3 (by decide), at1_bia1]
  rfl
theorem at5_src : W5 m ρ c (Proc.devRef .tc main_v1) = val_main_v1 (F := F) (edges m c) := by
  show StableHlo.after hostOps1_2 (StableHlo.after hostOps1_1 (StableHlo.after hostOps1 (W2 m ρ c))) (Proc.devRef .tc main_v1) = _
  after_results_simp
  rw [W2_of_ne m ρ c main_v1 (by decide), at1_src]
theorem at5_dst : W5 m ρ c (Proc.devRef .tc main_v3) = val_main_v3 (F := F) (edges m c) := by
  show StableHlo.after hostOps1_2 (StableHlo.after hostOps1_1 (StableHlo.after hostOps1 (W2 m ρ c))) (Proc.devRef .tc main_v3) = _
  after_results_simp
  rw [W2_of_ne m ρ c main_v3 (by decide), at1_dst]
theorem at5_srcLoop : W5 m ρ c (Proc.devRef .tc main_v5) = val_main_v5 (F := F) (edges m c) := by
  show StableHlo.after hostOps1_2 (StableHlo.after hostOps1_1 (StableHlo.after hostOps1 (W2 m ρ c))) (Proc.devRef .tc main_v5) = _
  after_results_simp
  rw [W2_of_ne m ρ c main_v5 (by decide), at1_srcLoop]
theorem at5_dstLoop : W5 m ρ c (Proc.devRef .tc main_v6) = val_main_v6 (F := F) (edges m c) := by
  show StableHlo.after hostOps1_2 (StableHlo.after hostOps1_1 (StableHlo.after hostOps1 (W2 m ρ c))) (Proc.devRef .tc main_v6) = _
  after_results_simp
  rw [W2_of_ne m ρ c main_v6 (by decide), at1_dstLoop]
theorem at5_wts2 : W5 m ρ c (Proc.devRef .tc main_arg4) = wts2 m c := by
  show StableHlo.after hostOps1_2 (StableHlo.after hostOps1_1 (StableHlo.after hostOps1 (W2 m ρ c))) (Proc.devRef .tc main_arg4) = _
  after_results_simp
  rw [W2_of_ne m ρ c main_arg4 (by decide), at1_wts2]
theorem at5_bia2 : W5 m ρ c (Proc.devRef .tc main_arg5) = bia2 m c := by
  show StableHlo.after hostOps1_2 (StableHlo.after hostOps1_1 (StableHlo.after hostOps1 (W2 m ρ c))) (Proc.devRef .tc main_arg5) = _
  after_results_simp
  rw [W2_of_ne m ρ c main_arg5 (by decide), at1_bia2]

theorem at7_src : W7 m ρ c (Proc.devRef .tc main_v1) = val_main_v1 (F := F) (edges m c) :=
  (W7_of_ne m ρ c main_v1 (by decide)).trans ((W6_of_ne m ρ c main_v1 (by decide)).trans (at5_src m ρ c))
theorem at7_dst : W7 m ρ c (Proc.devRef .tc main_v3) = val_main_v3 (F := F) (edges m c) :=
  (W7_of_ne m ρ c main_v3 (by decide)).trans ((W6_of_ne m ρ c main_v3 (by decide)).trans (at5_dst m ρ c))
theorem at7_srcLoop : W7 m ρ c (Proc.devRef .tc main_v5) = val_main_v5 (F := F) (edges m c) :=
  (W7_of_ne m ρ c main_v5 (by decide)).trans ((W6_of_ne m ρ c main_v5 (by decide)).trans (at5_srcLoop m ρ c))
theorem at7_dstLoop : W7 m ρ c (Proc.devRef .tc main_v6) = val_main_v6 (F := F) (edges m c) :=
  (W7_of_ne m ρ c main_v6 (by decide)).trans ((W6_of_ne m ρ c main_v6 (by decide)).trans (at5_dstLoop m ρ c))
theorem at7_bia2 : W7 m ρ c (Proc.devRef .tc main_arg5) = bia2 m c :=
  (W7_of_ne m ρ c main_arg5 (by decide)).trans ((W6_of_ne m ρ c main_arg5 (by decide)).trans (at5_bia2 m ρ c))

/-! ## Between the second product and the second bias: the second aggregation over the edges -/

theorem at10_agg2 (h46 : W7 m ρ c (Proc.devRef .tc main_v46) = val_main_v51 (F := F) (feat m c) (edges m c) (wts1 m c) (bia1 m c) (wts2 m c)) :
    W10 m ρ c (Proc.devRef .tc main_v82) = val_main_v87 (F := F) (feat m c) (edges m c) (wts1 m c) (bia1 m c) (wts2 m c) := by
  show StableHlo.after hostOps3_2 (StableHlo.after hostOps3_1 (StableHlo.after hostOps3 (W7 m ρ c))) (Proc.devRef .tc main_v82) = _
  after_results_simp
  rw [h46, at7_srcLoop, at7_dstLoop]
  rfl
/-- The second bias as a 1 × 64 row. -/
theorem at10_biasRow2 : W10 m ρ c (Proc.devRef .tc main_v83)
    = shapeCast Cert.ReferenceIdeal.S1x64 (bia2 m c) Cert.KernelIdeal.Gen.shapeCasts_S64_S1x64 := by
  show StableHlo.after hostOps3_2 (StableHlo.after hostOps3_1 (StableHlo.after hostOps3 (W7 m ρ c))) (Proc.devRef .tc main_v83) = _
  after_results_simp
  rw [at7_bia2]
  rfl
theorem at10_src : W10 m ρ c (Proc.devRef .tc main_v1) = val_main_v1 (F := F) (edges m c) := by
  show StableHlo.after hostOps3_2 (StableHlo.after hostOps3_1 (StableHlo.after hostOps3 (W7 m ρ c))) (Proc.devRef .tc main_v1) = _
  after_results_simp
  rw [at7_src]
theorem at10_dst : W10 m ρ c (Proc.devRef .tc main_v3) = val_main_v3 (F := F) (edges m c) := by
  show StableHlo.after hostOps3_2 (StableHlo.after hostOps3_1 (StableHlo.after hostOps3 (W7 m ρ c))) (Proc.devRef .tc main_v3) = _
  after_results_simp
  rw [at7_dst]

/-! ## The two endpoint gathers, and the final reshape -/

theorem at12_srcRows (h84 : W11 m ρ c (Proc.devRef .tc main_v84) = val_main_v90 (F := F) (feat m c) (edges m c) (wts1 m c) (bia1 m c) (wts2 m c) (bia2 m c)) :
    W12 m ρ c (Proc.devRef .tc main_v91) = val_main_v97 (F := F) (feat m c) (edges m c) (wts1 m c) (bia1 m c) (wts2 m c) (bia2 m c) := by
  show StableHlo.after hostOps4 (W11 m ρ c) (Proc.devRef .tc main_v91) = _
  after_results_simp
  rw [h84, W11_of_ne m ρ c main_v1 (by decide), at10_src]
  rfl
theorem at12_dstRows (h84 : W11 m ρ c (Proc.devRef .tc main_v84) = val_main_v90 (F := F) (feat m c) (edges m c) (wts1 m c) (bia1 m c) (wts2 m c) (bia2 m c)) :
    W12 m ρ c (Proc.devRef .tc main_v98) = val_main_v104 (F := F) (feat m c) (edges m c) (wts1 m c) (bia1 m c) (wts2 m c) (bia2 m c) := by
  show StableHlo.after hostOps4 (W11 m ρ c) (Proc.devRef .tc main_v98) = _
  after_results_simp
  rw [h84, W11_of_ne m ρ c main_v3 (by decide), at10_dst]
  rfl

/-- The result buffer is the edge-score column reshaped to a vector. -/
theorem at14_result : W14 m ρ c (Proc.devRef .tc main_v100)
    = shapeCast Cert.ReferenceIdeal.S800000 (W13 m ρ c (Proc.devRef .tc main_v99)) Cert.KernelIdeal.Gen.shapeCasts_S800000x1_S800000 := by
  show StableHlo.after hostOps5 (W13 m ρ c) (Proc.devRef .tc main_v100) = _
  after_results_simp <;> rfl

end AnyValues

/-! ## The five tiled stages, over the extended reals -/

section ExtendedReals

variable (m : (ℓ : Loc nD τ sig) → Buf (Elt Ideal) ℓ) (ρ : Dev nD → PrngReg) (c : Dev nD)

/-- The first product. -/
theorem at2_proj1 : W2 m ρ c (Proc.devRef .tc main_v7) = val_main_v7 (F := Ideal) (feat m c) (wts1 m c) := by
  rw [Cert.ReferenceIdeal.Stages.proj1_eq]
  refine (W2_arr m ρ c 2).trans ((proj1_final (V1 m ρ) c).trans ?_)
  show matProd (W1 m ρ c (Proc.devRef .tc main_arg0)) (W1 m ρ c (Proc.devRef .tc main_arg2)) = _
  rw [at1_feat, at1_wts1]

/-- The first bias with its rectifier. -/
theorem at6_hidden : W6 m ρ c (Proc.devRef .tc main_v45)
    = val_main_v47 (F := Ideal) (feat m c) (edges m c) (wts1 m c) (bia1 m c) := by
  rw [Cert.ReferenceIdeal.Stages.bias1_eq _ _ _ _ Cert.KernelIdeal.Gen.shapeCasts_S128_S1x128]
  refine (W6_arr m ρ c 2).trans ((bias1_final (V5 m ρ) c).trans ?_)
  show addBiasRelu _ (W5 m ρ c (Proc.devRef .tc main_v43)) (W5 m ρ c (Proc.devRef .tc main_v44)) = _
  rw [at5_agg1 m ρ c (at2_proj1 m ρ c), at5_biasRow1]

/-- The second product. -/
theorem at7_proj2 : W7 m ρ c (Proc.devRef .tc main_v46) = val_main_v51 (F := Ideal) (feat m c) (edges m c) (wts1 m c) (bia1 m c) (wts2 m c) := by
  rw [Cert.ReferenceIdeal.Stages.proj2_eq]
  refine (W7_arr m ρ c 2).trans ((proj2_final (V6 m ρ) c).trans ?_)
  show matProd (W6 m ρ c (Proc.devRef .tc main_v45)) (W6 m ρ c (Proc.devRef .tc main_arg4)) = _
  rw [at6_hidden, W6_of_ne m ρ c main_arg4 (by decide), at5_wts2]

/-- The second bias. -/
theorem at11_out : W11 m ρ c (Proc.devRef .tc main_v84) = val_main_v90 (F := Ideal) (feat m c) (edges m c) (wts1 m c) (bia1 m c) (wts2 m c) (bia2 m c) := by
  rw [Cert.ReferenceIdeal.Stages.bias2_eq _ _ _ _ _ _ Cert.KernelIdeal.Gen.shapeCasts_S64_S1x64]
  refine (W11_arr m ρ c 2).trans ((bias2_final (V10 m ρ) c).trans ?_)
  show addBias (W10 m ρ c (Proc.devRef .tc main_v82)) (W10 m ρ c (Proc.devRef .tc main_v83)) = _
  rw [at10_agg2 m ρ c (at7_proj2 m ρ c), at10_biasRow2]

/-- The edge scores, as a column. -/
theorem at13_scores : W13 m ρ c (Proc.devRef .tc main_v99)
    = rowDots (E := 800000) (D := 64) (val_main_v97 (F := Ideal) (feat m c) (edges m c) (wts1 m c) (bia1 m c) (wts2 m c) (bia2 m c)) (val_main_v104 (F := Ideal) (feat m c) (edges m c) (wts1 m c) (bia1 m c) (wts2 m c) (bia2 m c)) := by
  refine (W13_arr m ρ c 2).trans ((edge_final (V12 m ρ) c).trans ?_)
  show rowDots (W12 m ρ c (Proc.devRef .tc main_v91)) (W12 m ρ c (Proc.devRef .tc main_v98)) = _
  rw [at12_srcRows m ρ c (at11_out m ρ c), at12_dstRows m ρ c (at11_out m ρ c)]

/-- The kernel program's result buffer at the last boundary is the reference's result term of the arguments. -/
theorem kernel_result : W14 m ρ c (Proc.devRef .tc main_v100) = val_main_v106 (F := Ideal) (feat m c) (edges m c) (wts1 m c) (bia1 m c) (wts2 m c) (bia2 m c) := by
  rw [Cert.ReferenceIdeal.Stages.edge_eq _ _ _ _ _ _ Cert.KernelIdeal.Gen.shapeCasts_S800000x1_S800000, at14_result, at13_scores]

end ExtendedReals

end Cert.KernelIdeal.Bridge

end
-- ==== Proof.lean ====
/-
  A two-layer graph convolutional network scoring every edge, tiled, against the same network computed whole.

  Both programs compute, for node features X, an edge list, and two layers (W₁, b₁), (W₂, b₂):
      H₁ = relu(Â (X W₁) + b₁),   H₂ = Â (H₁ W₂) + b₂,   score(e) = ⟨H₂[src e], H₂[dst e]⟩,
  where Â = D^(-1/2) (A + I) D^(-1/2) is applied by a gather along the sources, a scaling by the degree
  normalisation, and a scatter-add at the destinations. The kernel program runs the five dense stages — the two
  products, the two bias stages, the edge scores — as tiled stages over row blocks, and everything else as the
  reference's own host operations; the reference runs each dense stage as one host operation.

  Over the extended reals each tiled stage leaves the same array as the reference's host operation of the same
  inputs (a block of a matrix product is the product of the row block; a bias row broadcast down a block is the
  bias broadcast down the array; a lane sum into zero is the sum from zero), with no use of finiteness: the
  only algebra is 0 + s = s. So the two results are one term of the arguments, and the claim's five parts are:
  the two kernel programs' frames, generated; the reference's frame, its run with the result dropped; the
  idealisation, which rewrote nothing; and the equality of results, the kernel program's run read at its
  result buffer set beside the reference's run.
-/
import proofs.«103497_j73409581023621_2_alg».proof.Defs
import proofs.«103497_j73409581023621_2_alg».proof.Proof.Gen.Kernel
import proofs.«103497_j73409581023621_2_alg».proof.Proof.Gen.Kernel.Skeleton
import proofs.«103497_j73409581023621_2_alg».proof.Proof.Gen.Kernel.Launch
import proofs.«103497_j73409581023621_2_alg».proof.Proof.Gen.Kernel.Points
import proofs.«103497_j73409581023621_2_alg».proof.Proof.Gen.Kernel.Frame
import proofs.«103497_j73409581023621_2_alg».proof.Proof.Gen.KernelIdeal
import proofs.«103497_j73409581023621_2_alg».proof.Proof.Gen.KernelIdeal.Skeleton
import proofs.«103497_j73409581023621_2_alg».proof.Proof.Gen.KernelIdeal.Launch
import proofs.«103497_j73409581023621_2_alg».proof.Proof.Gen.KernelIdeal.Points
import proofs.«103497_j73409581023621_2_alg».proof.Proof.Gen.KernelIdeal.Frame
import proofs.«103497_j73409581023621_2_alg».proof.Proof.Gen.ReferenceIdeal
import proofs.«103497_j73409581023621_2_alg».proof.Proof.RefRun
import proofs.«103497_j73409581023621_2_alg».proof.Proof.RefRead
import proofs.«103497_j73409581023621_2_alg».proof.Proof.Gen.Pre_finite_inputs
import proofs.«103497_j73409581023621_2_alg».proof.Proof.RunResult
import proofs.«103497_j73409581023621_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealised kernel program runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories that agree on the six arguments both programs end with the same edge scores: the reference's
    result term of the arguments. -/
theorem algebraic : Cert.algebraic_KernelIdeal_ReferenceIdeal := by
  intro m ρ m' ρ' _ hagree
  refine ⟨fun c => Cert.ReferenceIdeal.ReadP.val_main_v106 (F := Ideal) (Cert.KernelIdeal.Bridge.feat m c)
      (Cert.KernelIdeal.Bridge.edges m c) (Cert.KernelIdeal.Bridge.wts1 m c) (Cert.KernelIdeal.Bridge.bia1 m c)
      (Cert.KernelIdeal.Bridge.wts2 m c) (Cert.KernelIdeal.Bridge.bia2 m c), ?_, ?_⟩
  · exact (θ_run Cert.KernelIdeal.defs _ _).mono
      (fun _ h c => ⟨(h c).1.trans (Cert.KernelIdeal.Bridge.kernel_result m ρ c), (h c).2⟩)
      (Cert.KernelIdeal.Bridge.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v106_eq]
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
